-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096 .f32) (main_arg5 : FVec F S4096x1024 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S4096x2048 : Shape := ⟨2, ![4096, 2048]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S4096x2048, .f32⟩
  | .hbm, ⟨8, _⟩ => ⟨S4096x2048, .bf16⟩
  | .hbm, ⟨9, _⟩ => ⟨S4096, .f32⟩
  | .hbm, ⟨10, _⟩ => ⟨S1x4096, .f32⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x2048, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S4096x1024_S4096x1024_S4096x2048_d1 : Shape.Concatenates [S4096x1024, S4096x1024] S4096x2048 1
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S4096x2048_S256x4096_1_1_0_0_n_n_wf : DotDims.WF S256x2048 S4096x2048 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x2048.size a ≤ S4096x2048.size a
  hwx0_3 : ∀ i : grid0.Coords, EltTy.bits .bf16 = 32 ∨ (Rect.block (s := S4096x2048) S4096x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x2048_S4096x2048_S256x4096_1_1_0_0_n_n : DotDims S256x2048 S4096x2048 S256x4096 where
  lhsContracting := [1]
  rhsContracting := [1]
  lhsNonContracting := [0]
  rhsNonContracting := [0]
  lhsBatch := []
  rhsBatch := []
  wf := dot_S256x2048_S4096x2048_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LstmSpec.lean ====
/-
  The mathematics of one LSTM cell step on the extended reals, with no program in sight.

  A gate pre-activation of batch row r and gate column g is
      (x_r · Wi_g + bi_g) + h_r · Wh_g + bh_g,
  the four gate groups are the column ranges [0,1024), [1024,2048), [2048,3072), [3072,4096),
  the logistic function is 1 / (1 + e^(-z)), and
      c1 = σ(f) · c0 + σ(i) · tanh(g),      h1 = σ(o) · tanh(c1).
  Two laws join the two programs: the logistic function is ½ · tanh(½ z) + ½ on EVERY extended
  real (the infinities included, so no finiteness is needed), and a contraction over a joined
  axis of 1024 + 1024 entries, plus the sum of two biases, is the two contractions with the
  biases added one after the other (associativity and commutativity of + only).
-/
import Idealize.ShloMosaic.PureOps.Ideal
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx

/-! ## The logistic function -/

/-- The logistic function as a quotient: 1 / (1 + e^(-z)), with the extended reals' conventions
    (e^(-∞) = 0, e^(+∞) = +∞, 1 / +∞ = 0). -/
def sigm (z : EReal) : EReal := Ideal.div 1 (1 + Ideal.exp (-z))

/-- On the reals: ½ tanh(½ r) + ½ = 1 / (1 + e^(-r)). With a = e^(r/2): tanh(r/2) = (a - 1/a)/(a + 1/a)
    and e^(-r) = 1/a², so both sides are a / (a + 1/a). -/
theorem real_half_tanh (r : ℝ) : 1 / 2 * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  generalize Real.exp (1 / 2 * r) = a at ha
  have ha' : a ≠ 0 := ne_of_gt ha
  field_simp
  ring

/-- The float word 0x3F000000 is the real one half. -/
theorem ofBits_half : Ideal.ofBits .f32 0x3F000000#32 = (((1 : ℝ) / 2 : ℝ) : EReal) := by
  simp [Ideal.ofBits, Ideal.ieee, -EReal.coe_mul]; norm_num

/-- ½ · tanh(½ z) + ½ is the logistic function at EVERY extended real: at -∞ both sides are 0
    (tanh(-∞) = -1; e^(+∞) = +∞ and 1/+∞ = 0), at +∞ both are 1 (tanh(+∞) = 1; e^(-∞) = 0),
    and on the reals it is `real_half_tanh`. -/
theorem half_tanh (z : EReal) :
    (((1 : ℝ) / 2 : ℝ) : EReal) * Ideal.tanh ((((1 : ℝ) / 2 : ℝ) : EReal) * z) + (((1 : ℝ) / 2 : ℝ) : EReal) = sigm z := by
  induction z using EReal.rec with
  | bot =>
    rw [EReal.coe_mul_bot_of_pos (by norm_num)]
    show (((1 : ℝ) / 2 : ℝ) : EReal) * (-1 : EReal) + _ = Ideal.div 1 (1 + Ideal.exp (- ⊥))
    rw [EReal.neg_bot]
    show _ = Ideal.div 1 (1 + ⊤)
    rw [EReal.add_top_of_ne_bot (by decide)]
    unfold Ideal.div
    rw [if_neg (by decide), EReal.inv_top, mul_zero]
    rw [show (-1 : EReal) = ((-1 : ℝ) : EReal) by rw [EReal.coe_neg, EReal.coe_one], ← EReal.coe_mul, ← EReal.coe_add]
    norm_num
  | coe r =>
    rw [← EReal.coe_mul]
    show (((1 : ℝ) / 2 : ℝ) : EReal) * ((Real.tanh (1 / 2 * r) : ℝ) : EReal) + _ = Ideal.div 1 (1 + Ideal.exp (-(r : EReal)))
    rw [← EReal.coe_neg]
    show _ = Ideal.div 1 (1 + ((Real.exp (-r) : ℝ) : EReal))
    rw [show (1 : EReal) = ((1 : ℝ) : EReal) by norm_cast, ← EReal.coe_add, ← EReal.coe_mul, ← EReal.coe_add]
    have hpos : (0 : ℝ) < 1 + Real.exp (-r) := by positivity
    unfold Ideal.div
    rw [if_neg (by rw [EReal.coe_eq_zero]; exact ne_of_gt hpos), ← EReal.coe_inv, ← EReal.coe_mul, one_mul, real_half_tanh]
  | top =>
    rw [EReal.coe_mul_top_of_pos (by norm_num)]
    show (((1 : ℝ) / 2 : ℝ) : EReal) * (1 : EReal) + _ = Ideal.div 1 (1 + Ideal.exp (- ⊤))
    rw [EReal.neg_top]
    show _ = Ideal.div 1 (1 + 0)
    rw [add_zero, mul_one]
    unfold Ideal.div
    rw [if_neg (by norm_num), inv_one, mul_one]
    rw [← EReal.coe_add, show (1 : EReal) = ((1 : ℝ) : EReal) by norm_cast]
    norm_num

/-! ## One cell -/

/-- The new cell state from the input, forget and cell pre-activations and the old cell state. -/
def cellC (zi zf zg c0 : EReal) : EReal := sigm zf * c0 + sigm zi * Ideal.tanh zg

/-- The new hidden state: the output gate times tanh of the new cell state. -/
def cellH (zi zf zg zo c0 : EReal) : EReal := sigm zo * Ideal.tanh (cellC zi zf zg c0)

/-! ## A gate pre-activation -/

/-- (x·wi + bi) + h·wh + bh for one batch row and one gate column, the contractions over 1024 entries. -/
def pre (xr hr wi wh : Fin 1024 → EReal) (bi bh : EReal) : EReal :=
  (((∑ k : Fin 1024, xr k * wi k) + bi) + ∑ k : Fin 1024, hr k * wh k) + bh

/-- A contraction over the joined axis (entries 0…1023 the first pair, 1024…2047 the second) plus the
    sum of the two biases is the pre-activation: the sum over 2048 splits at 1024, and + is
    associative and commutative on the extended reals. -/
theorem joined_dot (u v : Fin 2048 → EReal) (xr hr wi wh : Fin 1024 → EReal) (bi bh : EReal)
    (hu0 : ∀ k : Fin 1024, u ⟨k.val, by omega⟩ = xr k) (hu1 : ∀ k : Fin 1024, u ⟨1024 + k.val, by omega⟩ = hr k)
    (hv0 : ∀ k : Fin 1024, v ⟨k.val, by omega⟩ = wi k) (hv1 : ∀ k : Fin 1024, v ⟨1024 + k.val, by omega⟩ = wh k) :
    (∑ k : Fin 2048, u k * v k) + (bi + bh) = pre xr hr wi wh bi bh := by
  have hs : (∑ k : Fin 2048, u k * v k)
      = (∑ k : Fin 1024, xr k * wi k) + ∑ k : Fin 1024, hr k * wh k := by
    refine (Fin.sum_univ_add (a := 1024) (b := 1024) (fun k : Fin (1024 + 1024) => u k * v k)).trans ?_
    refine congrArg₂ (· + ·) (Finset.sum_congr rfl fun k _ => ?_) (Finset.sum_congr rfl fun k _ => ?_)
    · exact congrArg₂ (· * ·) (hu0 k) (hv0 k)
    · exact congrArg₂ (· * ·) (hu1 k) (hv1 k)
  rw [hs]
  unfold pre
  rw [add_add_add_comm, add_assoc ((∑ k : Fin 1024, xr k * wi k) + bi)]

/-! ## The arrays -/

/-- The activations' shape (batch × features), a weight's (gate columns × features), a bias's. -/
abbrev SAct : Shape := ⟨2, ![16384, 1024]⟩
abbrev SWgt : Shape := ⟨2, ![4096, 1024]⟩
abbrev SBias : Shape := ⟨1, ![4096]⟩

/-- The gate columns of hidden unit q: the input, forget, cell and output groups. -/
def colI (q : Fin 1024) : Fin 4096 := ⟨q.val, by omega⟩
def colF (q : Fin 1024) : Fin 4096 := ⟨q.val + 1024, by omega⟩
def colG (q : Fin 1024) : Fin 4096 := ⟨q.val + 2048, by omega⟩
def colO (q : Fin 1024) : Fin 4096 := ⟨q.val + 3072, by omega⟩

/-- The pre-activation of batch row r at gate column g, from the whole arrays. -/
def gate (x h : SAct.Idx → EReal) (Wi Wh : SWgt.Idx → EReal) (bi bh : SBias.Idx → EReal)
    (r : Fin 16384) (g : Fin 4096) : EReal :=
  pre (fun k => x (ix2 r k)) (fun k => h (ix2 r k)) (fun k => Wi (ix2 g k)) (fun k => Wh (ix2 g k))
    (bi (ix1 g)) (bh (ix1 g))

/-- The new cell state of batch row r, hidden unit q. -/
def c1At (x h c : SAct.Idx → EReal) (Wi Wh : SWgt.Idx → EReal) (bi bh : SBias.Idx → EReal)
    (r : Fin 16384) (q : Fin 1024) : EReal :=
  cellC (gate x h Wi Wh bi bh r (colI q)) (gate x h Wi Wh bi bh r (colF q)) (gate x h Wi Wh bi bh r (colG q))
    (c (ix2 r q))

/-- The new hidden state of batch row r, hidden unit q. -/
def h1At (x h c : SAct.Idx → EReal) (Wi Wh : SWgt.Idx → EReal) (bi bh : SBias.Idx → EReal)
    (r : Fin 16384) (q : Fin 1024) : EReal :=
  cellH (gate x h Wi Wh bi bh r (colI q)) (gate x h Wi Wh bi bh r (colF q)) (gate x h Wi Wh bi bh r (colG q))
    (gate x h Wi Wh bi bh r (colO q)) (c (ix2 r q))

/-- The two result arrays, index by index. -/
def C1 (x h c : SAct.Idx → EReal) (Wi Wh : SWgt.Idx → EReal) (bi bh : SBias.Idx → EReal) : SAct.Idx → EReal :=
  fun i => c1At x h c Wi Wh bi bh (i 0) (i 1)
def H1 (x h c : SAct.Idx → EReal) (Wi Wh : SWgt.Idx → EReal) (bi bh : SBias.Idx → EReal) : SAct.Idx → EReal :=
  fun i => h1At x h c Wi Wh bi bh (i 0) (i 1)

theorem C1_ix2 (x h c : SAct.Idx → EReal) (Wi Wh : SWgt.Idx → EReal) (bi bh : SBias.Idx → EReal)
    (r : Fin 16384) (q : Fin 1024) : C1 x h c Wi Wh bi bh (ix2 r q) = c1At x h c Wi Wh bi bh r q := rfl
theorem H1_ix2 (x h c : SAct.Idx → EReal) (Wi Wh : SWgt.Idx → EReal) (bi bh : SBias.Idx → EReal)
    (r : Fin 16384) (q : Fin 1024) : H1 x h c Wi Wh bi bh (ix2 r q) = h1At x h c Wi Wh bi bh r q := rfl

end Cert.Lstm

end
-- ==== Proof.LstmRef.lean ====
/-
  The reference program, read index by index: its two results are the cell-step functions C1 and H1 of
  LstmSpec. The reference forms all 16384 × 4096 pre-activations (two contractions over 1024 entries and the
  two biases, added in the order of `pre`), slices the four gate groups out of the columns, applies
  1 / (1 + e^(-z)) or tanh, and combines them pointwise; each step below reads one of those stages at an index.
-/
import proofs.«106861_j37915971289787_2_alg».proof.Proof.Gen.ReferenceIdeal.Read
import proofs.«106861_j37915971289787_2_alg».proof.Proof.LstmSpec
import Idealize.ShloMosaic.Lib.IdealHost

noncomputable section

namespace Cert.Lstm.Ref

open Cert.ReferenceIdeal Cert.ReferenceIdeal.Read Idealize.ShloMosaic Idealize.ShloMosaic.ValueIdx Cert.Lstm

variable (x0 x1 x2 : (⟨S16384x1024, .f32⟩ : BufTy).Contents (Elt Ideal))
  (x3 : (⟨S4096x1024, .f32⟩ : BufTy).Contents (Elt Ideal)) (x4 : (⟨S4096, .f32⟩ : BufTy).Contents (Elt Ideal))
  (x5 : (⟨S4096x1024, .f32⟩ : BufTy).Contents (Elt Ideal)) (x6 : (⟨S4096, .f32⟩ : BufTy).Contents (Elt Ideal))

/-! ## Where each stage reads its operands, in coordinates -/

theorem lidx0 (r : Fin 16384) (g : Fin 4096) (k : Fin 1024) : lidx_main_v0 (ix2 r g) k = ix2 r k :=
  funext fun a => Fin.ext (by match a with | ⟨0, _⟩ => rfl | ⟨1, _⟩ => rfl)
theorem ridx0 (r : Fin 16384) (g : Fin 4096) (k : Fin 1024) : ridx_main_v0 (ix2 r g) k = ix2 g k :=
  funext fun a => Fin.ext (by match a with | ⟨0, _⟩ => rfl | ⟨1, _⟩ => rfl)
theorem lidx4 (r : Fin 16384) (g : Fin 4096) (k : Fin 1024) : lidx_main_v4 (ix2 r g) k = ix2 r k :=
  funext fun a => Fin.ext (by match a with | ⟨0, _⟩ => rfl | ⟨1, _⟩ => rfl)
theorem ridx4 (r : Fin 16384) (g : Fin 4096) (k : Fin 1024) : ridx_main_v4 (ix2 r g) k = ix2 g k :=
  funext fun a => Fin.ext (by match a with | ⟨0, _⟩ => rfl | ⟨1, _⟩ => rfl)
theorem bidx1 (r : Fin 16384) (g : Fin 4096) : idx_main_v1 (idx_main_v2 (ix2 r g)) = ix1 g :=
  funext fun a => Fin.ext (by match a with | ⟨0, _⟩ => rfl)
theorem bidx6 (r : Fin 16384) (g : Fin 4096) : idx_main_v6 (idx_main_v7 (ix2 r g)) = ix1 g :=
  funext fun a => Fin.ext (by match a with | ⟨0, _⟩ => rfl)

/-- The summed pre-activations at row r, column g. -/
theorem v8_at (r : Fin 16384) (g : Fin 4096) :
    val_main_v8 (F := Ideal) x0 x1 x3 x4 x5 x6 (ix2 r g) = gate x0 x1 x3 x5 x4 x6 r g := by
  rw [val_main_v8_apply, val_main_v5_apply, val_main_v3_apply, val_main_v0_apply, val_main_v2_apply, val_main_v1_apply,
    val_main_v4_apply, val_main_v7_apply, val_main_v6_apply]
  simp only [lidx0, ridx0, lidx4, ridx4, bidx1, bidx6]
  rfl

/-! ## The four column groups -/

theorem v9_at (r : Fin 16384) (q : Fin 1024) :
    val_main_v9 (F := Ideal) x0 x1 x3 x4 x5 x6 (ix2 r q) = gate x0 x1 x3 x5 x4 x6 r (colI q) := by
  rw [val_main_v9_apply]
  have e : idx_main_v9 (ix2 r q) = ix2 r (colI q) :=
    funext fun a => Fin.ext (by match a with | ⟨0, _⟩ => rfl | ⟨1, _⟩ => rfl)
  rw [e, v8_at]

theorem v10_at (r : Fin 16384) (q : Fin 1024) :
    val_main_v10 (F := Ideal) x0 x1 x3 x4 x5 x6 (ix2 r q) = gate x0 x1 x3 x5 x4 x6 r (colF q) := by
  rw [val_main_v10_apply]
  have e : idx_main_v10 (ix2 r q) = ix2 r (colF q) :=
    funext fun a => Fin.ext (by match a with | ⟨0, _⟩ => rfl | ⟨1, _⟩ => show 1024 + q.val = q.val + 1024; omega)
  rw [e, v8_at]

theorem v11_at (r : Fin 16384) (q : Fin 1024) :
    val_main_v11 (F := Ideal) x0 x1 x3 x4 x5 x6 (ix2 r q) = gate x0 x1 x3 x5 x4 x6 r (colG q) := by
  rw [val_main_v11_apply]
  have e : idx_main_v11 (ix2 r q) = ix2 r (colG q) :=
    funext fun a => Fin.ext (by match a with | ⟨0, _⟩ => rfl | ⟨1, _⟩ => show 2048 + q.val = q.val + 2048; omega)
  rw [e, v8_at]

theorem v12_at (r : Fin 16384) (q : Fin 1024) :
    val_main_v12 (F := Ideal) x0 x1 x3 x4 x5 x6 (ix2 r q) = gate x0 x1 x3 x5 x4 x6 r (colO q) := by
  rw [val_main_v12_apply]
  have e : idx_main_v12 (ix2 r q) = ix2 r (colO q) :=
    funext fun a => Fin.ext (by match a with | ⟨0, _⟩ => rfl | ⟨1, _⟩ => show 3072 + q.val = q.val + 3072; omega)
  rw [e, v8_at]

/-! ## The logistic stages: 1 / (1 + e^(-z)) of a column group -/

theorem v18_at (r : Fin 16384) (q : Fin 1024) :
    val_main_v18 (F := Ideal) x0 x1 x3 x4 x5 x6 (ix2 r q) = sigm (gate x0 x1 x3 x5 x4 x6 r (colI q)) := by
  rw [val_main_v18_apply, val_main_v17_apply, val_main_cst_0_apply, val_main_v16_apply, val_main_v15_apply,
    val_main_cst_apply, val_main_v14_apply, val_main_v13_apply, v9_at]
  simp only [Ideal.ofBits_def, Ideal.ofBits_one_f32]
  rfl

theorem v24_at (r : Fin 16384) (q : Fin 1024) :
    val_main_v24 (F := Ideal) x0 x1 x3 x4 x5 x6 (ix2 r q) = sigm (gate x0 x1 x3 x5 x4 x6 r (colF q)) := by
  rw [val_main_v24_apply, val_main_v23_apply, val_main_cst_2_apply, val_main_v22_apply, val_main_v21_apply,
    val_main_cst_1_apply, val_main_v20_apply, val_main_v19_apply, v10_at]
  simp only [Ideal.ofBits_def, Ideal.ofBits_one_f32]
  rfl

theorem v31_at (r : Fin 16384) (q : Fin 1024) :
    val_main_v31 (F := Ideal) x0 x1 x3 x4 x5 x6 (ix2 r q) = sigm (gate x0 x1 x3 x5 x4 x6 r (colO q)) := by
  rw [val_main_v31_apply, val_main_v30_apply, val_main_cst_4_apply, val_main_v29_apply, val_main_v28_apply,
    val_main_cst_3_apply, val_main_v27_apply, val_main_v26_apply, v12_at]
  simp only [Ideal.ofBits_def, Ideal.ofBits_one_f32]
  rfl

/-! ## The two results -/

/-- The new cell state at (r, q). -/
theorem v34_at (r : Fin 16384) (q : Fin 1024) :
    val_main_v34 (F := Ideal) x0 x1 x2 x3 x4 x5 x6 (ix2 r q) = c1At x0 x1 x2 x3 x5 x4 x6 r q := by
  rw [val_main_v34_apply, val_main_v32_apply, val_main_v33_apply, val_main_v25_apply, v24_at, v18_at, v11_at]
  rfl

/-- The new hidden state at (r, q). -/
theorem v36_at (r : Fin 16384) (q : Fin 1024) :
    val_main_v36 (F := Ideal) x0 x1 x2 x3 x4 x5 x6 (ix2 r q) = h1At x0 x1 x2 x3 x5 x4 x6 r q := by
  rw [val_main_v36_apply, val_main_v35_apply, v31_at, v34_at]
  rfl

/-- The reference's second result is the cell-state array. -/
theorem v34_eq : val_main_v34 (F := Ideal) x0 x1 x2 x3 x4 x5 x6 = C1 x0 x1 x2 x3 x5 x4 x6 := by
  funext i
  rw [eq_ix2 i]
  exact v34_at x0 x1 x2 x3 x4 x5 x6 (i 0) (i 1)

/-- The reference's first result is the hidden-state array. -/
theorem v36_eq : val_main_v36 (F := Ideal) x0 x1 x2 x3 x4 x5 x6 = H1 x0 x1 x2 x3 x5 x4 x6 := by
  funext i
  rw [eq_ix2 i]
  exact v36_at x0 x1 x2 x3 x4 x5 x6 (i 0) (i 1)

end Cert.Lstm.Ref

end
-- ==== Proof.LstmBody.lean ====
/-
  The kernel's body at one grid point, read at an index of its block.

  The body joins the point's 256 rows of `input` and of `h_0` along the feature axis (2048 entries a row),
  contracts them against all 4096 rows of the joined weight, adds the one bias row to every row of the
  product, cuts the four gate groups out of the 4096 columns, and combines ½·tanh(½ z) + ½ of three of
  them, tanh of the fourth and the point's rows of `c_0` into the new cell state and hidden state. Read
  at (p, q) this is the cell step of LstmSpec on row `row p` of the arrays, whenever the operand blocks
  are the arrays' entries the hypotheses say: the contraction over the joined axis splits at 1024
  (`joined_dot`), and ½·tanh(½ z) + ½ is the logistic function (`half_tanh`).
-/
import proofs.«106861_j37915971289787_2_alg».proof.Proof.Gen.KernelIdeal.Value
import proofs.«106861_j37915971289787_2_alg».proof.Proof.LstmSpec
import Idealize.ShloMosaic.Lib.Pipeline.Value
import Idealize.ShloMosaic.Lib.ValueIdx
import Idealize.ShloMosaic.PureOps.Ideal.Laws

noncomputable section

namespace Cert.Lstm.Body

open Cert.KernelIdeal Cert.KernelIdeal.Gen
open Idealize.ShloMosaic Idealize.ShloMosaic.ValueIdx Cert.Lstm

/-! ## The matrix product at an index -/

/-- The product's dimension record: rows of the left operand against ROWS of the right one (both
    contracted along their second axis), no batch axis. -/
abbrev D := dot_S256x2048_S4096x2048_S256x4096_1_1_0_0_n_n

theorem lhs_0 (i : S256x4096.Idx) (q : D.contr.Idx) : (D.lhsIdx i q 0).val = (i 0).val := by
  unfold DotDims.lhsIdx
  rw [dif_neg (show ¬(0 : Fin S256x2048.rank) ∈ D.lhsBatch by decide), dif_pos (show (0 : Fin S256x2048.rank) ∈ D.lhsNonContracting by decide)]
  rfl
theorem lhs_1 (i : S256x4096.Idx) (q : D.contr.Idx) : (D.lhsIdx i q 1).val = (q ⟨0, by decide⟩).val :=
  D.lhsIdx_val_of_single rfl i q
theorem rhs_0 (i : S256x4096.Idx) (q : D.contr.Idx) : (D.rhsIdx i q 0).val = (i 1).val := by
  unfold DotDims.rhsIdx
  rw [dif_neg (show ¬(0 : Fin S4096x2048.rank) ∈ D.rhsBatch by decide), dif_pos (show (0 : Fin S4096x2048.rank) ∈ D.rhsNonContracting by decide)]
  rfl
theorem rhs_1 (i : S256x4096.Idx) (q : D.contr.Idx) : (D.rhsIdx i q 1).val = (q ⟨0, by decide⟩).val :=
  D.rhsIdx_val_of_single rfl i q

/-- The matrix product into a zero accumulator at (p, g): row p of the left operand against row g of the
    right one, summed over the 2048 joined entries. -/
theorem matmul_at (L : FVec Ideal S256x2048 .bf16) (R : FVec Ideal S4096x2048 .bf16) (p : Fin 256) (g : Fin 4096) :
    matmul D none L R (constant (F := Ideal) S256x4096 .f32 0x00000000#32) (ix2 p g)
      = ∑ k : Fin 2048, L (ix2 p k) * R (ix2 g k) := by
  refine (Ideal.matmul_constant_zero_apply D none L R (ix2 p g)).trans ?_
  rw [← Equiv.sum_comp (ValueIdx.contrEquiv1 D 2048 rfl rfl).symm]
  refine Finset.sum_congr rfl fun k _ => ?_
  have hk := ValueIdx.contrEquiv1_symm_val D 2048 rfl rfl k
  have el : D.lhsIdx (ix2 p g) ((ValueIdx.contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p g) ((ValueIdx.contrEquiv1 D 2048 rfl rfl).symm k) = ix2 g k := funext fun a => Fin.ext (by
    match a with
    | ⟨0, _⟩ => exact rhs_0 _ _
    | ⟨1, _⟩ => exact (rhs_1 _ _).trans hk)
  rw [el, er]

/-! ## The joined rows -/

/-- Two row blocks joined along the feature axis, read in the first half: the first block. -/
theorem joined_left (A B : FVec Ideal S256x1024 .bf16) (p : Fin 256) (k : Fin 1024) :
    concatenate S256x2048 1 [⟨S256x1024, A⟩, ⟨S256x1024, B⟩] concatenates_S256x1024_S256x1024_S256x2048_d1
      (ix2 p (⟨k.val, by omega⟩ : Fin 2048)) = A (ix2 p k) :=
  concatenate_pair_apply_left (1 : Fin 2) A B _ (ix2 p (⟨k.val, by omega⟩ : Fin 2048)) rfl (ix2 p k)
    (fun b => match b with | ⟨0, _⟩ => rfl | ⟨1, _⟩ => rfl)

/-- … and in the second half: the second block, 1024 entries back. -/
theorem joined_right (A B : FVec Ideal S256x1024 .bf16) (p : Fin 256) (k : Fin 1024) :
    concatenate S256x2048 1 [⟨S256x1024, A⟩, ⟨S256x1024, B⟩] concatenates_S256x1024_S256x1024_S256x2048_d1
      (ix2 p (⟨1024 + k.val, by omega⟩ : Fin 2048)) = B (ix2 p k) :=
  concatenate_pair_apply_right (1 : Fin 2) A B _ (ix2 p (⟨1024 + k.val, by omega⟩ : Fin 2048)) rfl rfl (ix2 p k)
    (fun b hb => match b, hb with | ⟨0, _⟩, _ => rfl | ⟨1, _⟩, hb => absurd rfl hb)
    (by show k.val + 1024 = 1024 + k.val; omega)

/-- The bias row spread down the 256 rows, read at (p, g): the row's entry g. -/
theorem bias_at (P3 : Vec Ideal S1x4096 .f32) (p : Fin 256) (g : Fin 4096) :
    broadcastTo S256x4096 (shapeCast S1x4096 P3 shapeCasts_S1x4096_S1x4096) broadcasts_S1x4096_S256x4096 (ix2 p g)
      = P3 (ix2 (0 : Fin 1) g) := by
  rw [shapeCast_self]
  exact broadcastTo_apply P3 broadcasts_S1x4096_S256x4096 (ix2 p g) (ix2 (0 : Fin 1) g) (fun a => match a with
    | ⟨0, _⟩ => by show 0 = if (1 : Nat) = 1 then 0 else p.val; rw [if_pos rfl]
    | ⟨1, _⟩ => by show g.val = if (4096 : Nat) = 1 then 0 else g.val; rw [if_neg (by decide)])

/-! ## The pre-activations -/

section
variable (X H C : SAct.Idx → EReal) (Wi Wh : SWgt.Idx → EReal) (bi bh : SBias.Idx → EReal)
  (P0 P1 P4 : Vec Ideal S256x1024 .f32) (P2 : Vec Ideal S4096x2048 .bf16) (P3 : Vec Ideal S1x4096 .f32)
  (row : Fin 256 → Fin 16384)
  (h0 : ∀ (p : Fin 256) (k : Fin 1024), P0 (ix2 p k) = X (ix2 (row p) k))
  (h1 : ∀ (p : Fin 256) (k : Fin 1024), P1 (ix2 p k) = H (ix2 (row p) k))
  (h4 : ∀ (p : Fin 256) (k : Fin 1024), P4 (ix2 p k) = C (ix2 (row p) k))
  (h2a : ∀ (g : Fin 4096) (k : Fin 1024), P2 (ix2 g (⟨k.val, by omega⟩ : Fin 2048)) = Wi (ix2 g k))
  (h2b : ∀ (g : Fin 4096) (k : Fin 1024), P2 (ix2 g (⟨1024 + k.val, by omega⟩ : Fin 2048)) = Wh (ix2 g k))
  (h3 : ∀ g : Fin 4096, P3 (ix2 (0 : Fin 1) g) = bi (ix1 g) + bh (ix1 g))

include h0 h1 h2a h2b h3 in
/-- The body's pre-activations at (p, g) are the arrays' at (row p, g): the joined contraction is the two
    contractions, the one bias row entry the two biases. -/
theorem pay3_gate (p : Fin 256) (g : Fin 4096) :
    k0_pay3 (F := Ideal) P0 P1 P2 P3 (ix2 p g) = gate X H Wi Wh bi bh (row p) g := by
  unfold k0_pay3
  show matmul D none _ _ (constant (F := Ideal) S256x4096 .f32 0x00000000#32) (ix2 p g)
      + broadcastTo S256x4096 (shapeCast S1x4096 P3 shapeCasts_S1x4096_S1x4096) broadcasts_S1x4096_S256x4096 (ix2 p g) = _
  rw [matmul_at, bias_at, h3 g, shapeCast_self]
  unfold gate
  refine joined_dot _ _ _ _ _ _ _ _ (fun k => ?_) (fun k => ?_) (fun k => h2a g k) (fun k => h2b g k)
  · exact (joined_left _ _ p k).trans (h0 p k)
  · exact (joined_right _ _ p k).trans (h1 p k)

/-! ## The gates and the cell -/

/-- ½ · tanh(½ z) + ½, spelt with the float operations and the float word for one half as the body has them. -/
def hsig (z : EReal) : EReal :=
  FloatOps.addf (F := Ideal) (φ := .f32)
    (FloatOps.mulf (F := Ideal) (φ := .f32) (Scalar.ofBits .f32 0x3F000000#32)
      (FloatOps.tanh (F := Ideal) (φ := .f32) (FloatOps.mulf (F := Ideal) (φ := .f32) (Scalar.ofBits .f32 0x3F000000#32) z)))
    (Scalar.ofBits .f32 0x3F000000#32)

/-- It is the logistic function. -/
theorem hsig_eq (z : EReal) : hsig z = sigm z := by
  show Ideal.ofBits .f32 0x3F000000#32 * Ideal.tanh (Ideal.ofBits .f32 0x3F000000#32 * z) + Ideal.ofBits .f32 0x3F000000#32 = _
  rw [ofBits_half]
  exact half_tanh z

include h0 h1 h2a h2b h3 h4 in
/-- The block of the cell-state output at (p, q): forget gate times the old state plus input gate times
    the candidate, the gates' columns q + 1024, q and q + 2048 of the pre-activations. -/
theorem E6_at (p : Fin 256) (q : Fin 1024) :
    Value.E6 (F := Ideal) P0 P1 P2 P3 P4 (ix2 p q) = c1At X H C Wi Wh bi bh (row p) q := by
  have i0 : Value.ix6_0 (ix2 p q) = ix2 p (colF q) := funext fun a => Fin.ext (by match a with | ⟨0, _⟩ => rfl | ⟨1, _⟩ => rfl)
  have i1 : Value.ix6_1 (ix2 p q) = ix2 p q := funext fun a => Fin.ext (by match a with | ⟨0, _⟩ => rfl | ⟨1, _⟩ => rfl)
  have i2 : Value.ix6_2 (ix2 p q) = ix2 p (colI q) := funext fun a => Fin.ext (by match a with | ⟨0, _⟩ => rfl | ⟨1, _⟩ => rfl)
  have i3 : Value.ix6_3 (ix2 p q) = ix2 p (colG q) := funext fun a => Fin.ext (by match a with | ⟨0, _⟩ => rfl | ⟨1, _⟩ => rfl)
  show hsig (k0_pay3 P0 P1 P2 P3 (Value.ix6_0 (ix2 p q))) * P4 (Value.ix6_1 (ix2 p q))
      + hsig (k0_pay3 P0 P1 P2 P3 (Value.ix6_2 (ix2 p q))) * Ideal.tanh (k0_pay3 P0 P1 P2 P3 (Value.ix6_3 (ix2 p q))) = _
  rw [i0, i1, i2, i3, hsig_eq, hsig_eq, h4 p q]
  simp only [pay3_gate X H Wi Wh bi bh P0 P1 P2 P3 row h0 h1 h2a h2b h3]
  rfl

include h0 h1 h2a h2b h3 h4 in
/-- The block of the hidden-state output at (p, q): the output gate (column q + 3072) times tanh of the new
    cell state. -/
theorem E5_at (p : Fin 256) (q : Fin 1024) :
    Value.E5 (F := Ideal) P0 P1 P2 P3 P4 (ix2 p q) = h1At X H C Wi Wh bi bh (row p) q := by
  have i0 : Value.ix5_0 (ix2 p q) = ix2 p (colO q) := funext fun a => Fin.ext (by match a with | ⟨0, _⟩ => rfl | ⟨1, _⟩ => rfl)
  have i1 : Value.ix5_1 (ix2 p q) = ix2 p (colF q) := funext fun a => Fin.ext (by match a with | ⟨0, _⟩ => rfl | ⟨1, _⟩ => rfl)
  have i2 : Value.ix5_2 (ix2 p q) = ix2 p q := funext fun a => Fin.ext (by match a with | ⟨0, _⟩ => rfl | ⟨1, _⟩ => rfl)
  have i3 : Value.ix5_3 (ix2 p q) = ix2 p (colI q) := funext fun a => Fin.ext (by match a with | ⟨0, _⟩ => rfl | ⟨1, _⟩ => rfl)
  have i4 : Value.ix5_4 (ix2 p q) = ix2 p (colG q) := funext fun a => Fin.ext (by match a with | ⟨0, _⟩ => rfl | ⟨1, _⟩ => rfl)
  show hsig (k0_pay3 P0 P1 P2 P3 (Value.ix5_0 (ix2 p q)))
      * Ideal.tanh (hsig (k0_pay3 P0 P1 P2 P3 (Value.ix5_1 (ix2 p q))) * P4 (Value.ix5_2 (ix2 p q))
        + hsig (k0_pay3 P0 P1 P2 P3 (Value.ix5_3 (ix2 p q))) * Ideal.tanh (k0_pay3 P0 P1 P2 P3 (Value.ix5_4 (ix2 p q)))) = _
  rw [i0, i1, i2, i3, i4, hsig_eq, hsig_eq, hsig_eq, h4 p q]
  simp only [pay3_gate X H Wi Wh bi bh P0 P1 P2 P3 row h0 h1 h2a h2b h3]
  rfl

end

/-! ## What the body leaves in the two output blocks -/

theorem hz : (![0, 0] : Fin 2 → Nat) = fun _ => 0 := funext fun a => by fin_cases a <;> rfl

/-- The body's one store into the cell-state block leaves, index by index, the function `E6` of the whole
    operand blocks (every load is of a whole block). -/
theorem out6_eq (x0 x1 x2 : Vec Ideal S256x1024 .f32) (x3 : Vec Ideal S4096x2048 .bf16) (x4 : Vec Ideal S1x4096 .f32)
    (y : S256x1024.Idx) : out0_6 x0 x1 x2 x3 x4 y = Value.E6 x0 x1 x3 x4 x2 y := by
  unfold out0_6
  simp only [View.ld_unit_zero (S := S256x1024) hz, View.ld_unit_zero (S := S4096x2048) hz, View.ld_unit_zero (S := S1x4096) hz]
  exact Value.canon6_eq x0 x1 x3 x4 x2 y

/-- The same for the hidden-state block and `E5`. -/
theorem out5_eq (x0 x1 x2 : Vec Ideal S256x1024 .f32) (x3 : Vec Ideal S4096x2048 .bf16) (x4 : Vec Ideal S1x4096 .f32)
    (y : S256x1024.Idx) : out0_5 x0 x1 x2 x3 x4 y = Value.E5 x0 x1 x3 x4 x2 y := by
  unfold out0_5
  simp only [View.ld_unit_zero (S := S256x1024) hz, View.ld_unit_zero (S := S4096x2048) hz, View.ld_unit_zero (S := S1x4096) hz]
  exact Value.canon5_eq x0 x1 x3 x4 x2 y

end Cert.Lstm.Body

end
-- ==== Proof.LstmArray.lean ====
/-
  From blocks to the two result arrays of the kernel.

  Grid point t (of 64) works on batch rows 256 t … 256 t + 255: its blocks of `input`, `h_0`, `c_0` and of the
  two results are those rows (all 1024 columns), while the joined weight and the bias row are fetched whole at
  every point. Before the region the host joins `W_ih` and `W_hh` along the feature axis (entries 0…1023 and
  1024…2047 of each row) and adds the two biases into one row. So what point t writes back is block t of the
  cell-step arrays `H1` and `C1` of LstmSpec, the 64 blocks cover all 16384 rows, and the arrays after the
  run are `H1` and `C1` of the arguments.
-/
import proofs.«106861_j37915971289787_2_alg».proof.Proof.Gen.KernelIdeal.Value
import proofs.«106861_j37915971289787_2_alg».proof.Proof.LstmSpec
import proofs.«106861_j37915971289787_2_alg».proof.Proof.LstmBody
import Idealize.ShloMosaic.Lib.Pipeline.Value
import Idealize.ShloMosaic.Lib.ValueIdx
import Idealize.ShloMosaic.Lib.StableHlo.Run

set_option maxRecDepth 16384

noncomputable section

namespace Cert.Lstm.Arr

open Cert.KernelIdeal Cert.KernelIdeal.Gen Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## The seven argument arrays as launched, as functions to the extended reals -/

abbrev aX (c : Dev nD) : SAct.Idx → EReal := m ((c : Thread nD τ).loc main_arg0)
abbrev aH (c : Dev nD) : SAct.Idx → EReal := m ((c : Thread nD τ).loc main_arg1)
abbrev aC (c : Dev nD) : SAct.Idx → EReal := m ((c : Thread nD τ).loc main_arg2)
abbrev aWi (c : Dev nD) : SWgt.Idx → EReal := m ((c : Thread nD τ).loc main_arg3)
abbrev aBi (c : Dev nD) : SBias.Idx → EReal := m ((c : Thread nD τ).loc main_arg4)
abbrev aWh (c : Dev nD) : SWgt.Idx → EReal := m ((c : Thread nD τ).loc main_arg5)
abbrev aBh (c : Dev nD) : SBias.Idx → EReal := m ((c : Thread nD τ).loc main_arg6)

/-! ## The two arrays the host prepares -/

/-- The weight array the region finds: `W_ih` and `W_hh` joined along the feature axis (the change of float
    format is the identity on extended reals). -/
theorem V_w (c : Dev nD) : @Eq (S4096x2048.Idx → EReal) (V m c main_v1)
    (truncf (F := Ideal) .bf16 (concatenate S4096x2048 1 [⟨S4096x1024, (m ((c : Thread nD τ).loc main_arg3) : S4096x1024.Idx → EReal)⟩, ⟨S4096x1024, (m ((c : Thread nD τ).loc main_arg5) : S4096x1024.Idx → EReal)⟩] concatenates_S4096x1024_S4096x1024_S4096x2048_d1) bitsLt_bf16_f32) := by
  dsimp only [Gen.V, Gen.hostOps0]; after_results

/-- The bias row the region finds: the two biases added, laid out as one row. -/
theorem V_b (c : Dev nD) : @Eq (S1x4096.Idx → EReal) (V m c main_v3)
    (shapeCast S1x4096 (addf (F := Ideal) (φ := .f32) (s := S4096) (m ((c : Thread nD τ).loc main_arg4)) (m ((c : Thread nD τ).loc main_arg6))) shapeCasts_S4096_S1x4096) := by
  dsimp only [Gen.V, Gen.hostOps0]; after_results; rfl

/-- Row g of the joined weight, first half: row g of `W_ih`. -/
theorem W_left (c : Dev nD) (g : Fin 4096) (k : Fin 1024) :
    (V m c main_v1 : S4096x2048.Idx → EReal) (ix2 g (⟨k.val, by omega⟩ : Fin 2048))
      = aWi m c (ix2 g k) :=
  (congrFun (V_w m c) _).trans
    (concatenate_pair_apply_left (t := S4096x2048) (s₁ := S4096x1024) (s₂ := S4096x1024) (1 : Fin 2) _ _ concatenates_S4096x1024_S4096x1024_S4096x2048_d1 (ix2 g (⟨k.val, by omega⟩ : Fin 2048)) rfl (ix2 g k)
      (fun b => match b with | ⟨0, _⟩ => rfl | ⟨1, _⟩ => rfl))

/-- Row g of the joined weight, second half: row g of `W_hh`. -/
theorem W_right (c : Dev nD) (g : Fin 4096) (k : Fin 1024) :
    (V m c main_v1 : S4096x2048.Idx → EReal) (ix2 g (⟨1024 + k.val, by omega⟩ : Fin 2048))
      = aWh m c (ix2 g k) :=
  (congrFun (V_w m c) _).trans
    (concatenate_pair_apply_right (t := S4096x2048) (s₁ := S4096x1024) (s₂ := S4096x1024) (1 : Fin 2) _ _ concatenates_S4096x1024_S4096x1024_S4096x2048_d1 (ix2 g (⟨1024 + k.val, by omega⟩ : Fin 2048)) rfl rfl (ix2 g k)
      (fun b hb => match b, hb with | ⟨0, _⟩, _ => rfl | ⟨1, _⟩, hb => absurd rfl hb)
      (by show k.val + 1024 = 1024 + k.val; omega))

/-- Entry g of the bias row: the two biases' entries g added. -/
theorem b_at (c : Dev nD) (g : Fin 4096) :
    (V m c main_v3 : S1x4096.Idx → EReal) (ix2 (0 : Fin 1) g)
      = aBi m c (ix1 g) + aBh m c (ix1 g) := by
  refine (congrFun (V_b m c) _).trans ?_
  refine (shapeCast_apply _ shapeCasts_S4096_S1x4096 (ix2 (0 : Fin 1) g) (ix1 g) ?_).trans rfl
  rw [Shape.rowMajor_val_one, Shape.rowMajor_val_two]
  show g.val = 0 * 4096 + g.val
  omega

/-! ## Which block each window holds at a point -/

/-- The printed index maps over the grid: the activations' and results' windows move with the point along
    the batch axis, the weight's and the bias's stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The batch row that row p of point t's blocks is. -/
def rowOf (t : Fin cfg0.N) (p : Fin 256) : Fin 16384 :=
  ⟨t.val * 256 + p.val, by have := t.isLt; have hN : cfg0.N = 64 := N_0; have := p.isLt; omega⟩

theorem iblk0_at (c : Dev nD) (t : Fin cfg0.N) (p : Fin 256) (k : Fin 1024) :
    (iblk m c 0 t : Vec Ideal S256x1024 .f32) (ix2 p k)
      = aX m c (ix2 (rowOf t p) k) := by
  obtain ⟨e0, e1, -⟩ := idx_facts t
  refine Eq.trans ?_ (congrFun (V_main_arg0 m c) (ix2 (rowOf t p) k))
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem iblk1_at (c : Dev nD) (t : Fin cfg0.N) (p : Fin 256) (k : Fin 1024) :
    (iblk m c 1 t : Vec Ideal S256x1024 .f32) (ix2 p k)
      = aH m c (ix2 (rowOf t p) k) := by
  obtain ⟨-, -, e0, e1, -⟩ := idx_facts t
  refine Eq.trans ?_ (congrFun (V_main_arg1 m c) (ix2 (rowOf t p) k))
  show V m c main_arg1 (((cfg0.win 1).blk t).view.emb (ix2 p k)) = V m c main_arg1 (ix2 (rowOf t p) k)
  refine congrArg (V m c main_arg1) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

theorem iblk2_at (c : Dev nD) (t : Fin cfg0.N) (p : Fin 256) (k : Fin 1024) :
    (iblk m c 2 t : Vec Ideal S256x1024 .f32) (ix2 p k)
      = aC m c (ix2 (rowOf t p) k) := by
  obtain ⟨-, -, -, -, e0, e1, -⟩ := idx_facts t
  refine Eq.trans ?_ (congrFun (V_main_arg2 m c) (ix2 (rowOf t p) k))
  show V m c main_arg2 (((cfg0.win 2).blk t).view.emb (ix2 p k)) = V m c main_arg2 (ix2 (rowOf t p) k)
  refine congrArg (V m c main_arg2) (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The weight window's block is the whole joined weight at every point. -/
theorem iblk3_at (c : Dev nD) (t : Fin cfg0.N) (g : Fin 4096) (k : Fin 2048) :
    (iblk m c 3 t : Vec Ideal S4096x2048 .bf16) (ix2 g k) = (V m c main_v1 : S4096x2048.Idx → EReal) (ix2 g k) := by
  obtain ⟨-, -, -, -, -, -, e0, e1, -⟩ := idx_facts t
  show V m c main_v1 (((cfg0.win 3).blk t).view.emb (ix2 g k)) = V m c main_v1 (ix2 g k)
  refine congrArg (V m c main_v1) (funext fun a => Fin.ext ?_)
  match a with
  | ⟨0, _⟩ => show win0_3.index t (0 : Fin 2) * 4096 + 1 * g.val = g.val; rw [e0]; omega
  | ⟨1, _⟩ => show win0_3.index t (1 : Fin 2) * 2048 + 1 * k.val = k.val; rw [e1]; omega

/-- The bias window's block is the whole bias row at every point. -/
theorem iblk4_at (c : Dev nD) (t : Fin cfg0.N) (g : Fin 4096) :
    (iblk m c 4 t : Vec Ideal S1x4096 .f32) (ix2 (0 : Fin 1) g) = (V m c main_v3 : S1x4096.Idx → EReal) (ix2 (0 : Fin 1) g) := by
  obtain ⟨-, -, -, -, -, -, -, -, e0, e1, -⟩ := idx_facts t
  show V m c main_v3 (((cfg0.win 4).blk t).view.emb (ix2 (0 : Fin 1) g)) = V m c main_v3 (ix2 (0 : Fin 1) g)
  refine congrArg (V m c main_v3) (funext fun a => Fin.ext ?_)
  match a with
  | ⟨0, _⟩ => show win0_4.index t (0 : Fin 2) * 1 + 1 * 0 = 0; rw [e0]
  | ⟨1, _⟩ => show win0_4.index t (1 : Fin 2) * 4096 + 1 * g.val = g.val; rw [e1]; omega

/-! ## What a point writes back -/

/-- The cell-state block the body leaves at point t, at (p, q): the cell step on batch row 256 t + p. -/
theorem out6_at (c : Dev nD) (t : Fin cfg0.N) (p : Fin 256) (q : Fin 1024) :
    out0_6 (iblk m c 0 t) (iblk m c 1 t) (iblk m c 2 t) (iblk m c 3 t) (iblk m c 4 t) (ix2 p q)
      = c1At (aX m c) (aH m c) (aC m c) (aWi m c) (aWh m c) (aBi m c) (aBh m c) (rowOf t p) q :=
  (Body.out6_eq (iblk m c 0 t) (iblk m c 1 t) (iblk m c 2 t) (iblk m c 3 t) (iblk m c 4 t) (ix2 p q)).trans
    (Body.E6_at (aX m c) (aH m c) (aC m c) (aWi m c) (aWh m c) (aBi m c) (aBh m c)
      (iblk m c 0 t) (iblk m c 1 t) (iblk m c 2 t) (iblk m c 3 t) (iblk m c 4 t) (rowOf t)
      (iblk0_at m c t) (iblk1_at m c t) (iblk2_at m c t)
      (fun g k => (iblk3_at m c t g _).trans (W_left m c g k))
      (fun g k => (iblk3_at m c t g _).trans (W_right m c g k))
      (fun g => (iblk4_at m c t g).trans (b_at m c g)) p q)

/-- The hidden-state block the body leaves at point t, at (p, q). -/
theorem out5_at (c : Dev nD) (t : Fin cfg0.N) (p : Fin 256) (q : Fin 1024) :
    out0_5 (iblk m c 0 t) (iblk m c 1 t) (iblk m c 2 t) (iblk m c 3 t) (iblk m c 4 t) (ix2 p q)
      = h1At (aX m c) (aH m c) (aC m c) (aWi m c) (aWh m c) (aBi m c) (aBh m c) (rowOf t p) q :=
  (Body.out5_eq (iblk m c 0 t) (iblk m c 1 t) (iblk m c 2 t) (iblk m c 3 t) (iblk m c 4 t) (ix2 p q)).trans
    (Body.E5_at (aX m c) (aH m c) (aC m c) (aWi m c) (aWh m c) (aBi m c) (aBh m c)
      (iblk m c 0 t) (iblk m c 1 t) (iblk m c 2 t) (iblk m c 3 t) (iblk m c 4 t) (rowOf t)
      (iblk0_at m c t) (iblk1_at m c t) (iblk2_at m c t)
      (fun g k => (iblk3_at m c t g _).trans (W_left m c g k))
      (fun g k => (iblk3_at m c t g _).trans (W_right m c g k))
      (fun g => (iblk4_at m c t g).trans (b_at m c g)) p q)

/-- The same at a block index y and the array index i it sits at (row 256 t + y₀, column y₁). -/
theorem out6_point (c : Dev nD) (t : Fin cfg0.N) (y : S256x1024.Idx) (i : SAct.Idx)
    (hi0 : (i 0).val = t.val * 256 + (y 0).val) (hi1 : (i 1).val = (y 1).val) :
    out0_6 (iblk m c 0 t) (iblk m c 1 t) (iblk m c 2 t) (iblk m c 3 t) (iblk m c 4 t) y
      = C1 (aX m c) (aH m c) (aC m c) (aWi m c) (aWh m c) (aBi m c) (aBh m c) i := by
  obtain ⟨p, q, rfl⟩ : ∃ (p : Fin 256) (q : Fin 1024), y = ix2 p q := ⟨y 0, y 1, eq_ix2 y⟩
  obtain ⟨r, q', rfl⟩ : ∃ (r : Fin 16384) (q' : Fin 1024), i = ix2 r q' := ⟨i 0, i 1, eq_ix2 i⟩
  obtain rfl : r = rowOf t p := Fin.ext hi0
  obtain rfl : q' = q := Fin.ext hi1
  exact out6_at m c t p q'

theorem out5_point (c : Dev nD) (t : Fin cfg0.N) (y : S256x1024.Idx) (i : SAct.Idx)
    (hi0 : (i 0).val = t.val * 256 + (y 0).val) (hi1 : (i 1).val = (y 1).val) :
    out0_5 (iblk m c 0 t) (iblk m c 1 t) (iblk m c 2 t) (iblk m c 3 t) (iblk m c 4 t) y
      = H1 (aX m c) (aH m c) (aC m c) (aWi m c) (aWh m c) (aBi m c) (aBh m c) i := by
  obtain ⟨p, q, rfl⟩ : ∃ (p : Fin 256) (q : Fin 1024), y = ix2 p q := ⟨y 0, y 1, eq_ix2 y⟩
  obtain ⟨r, q', rfl⟩ : ∃ (r : Fin 16384) (q' : Fin 1024), i = ix2 r q' := ⟨i 0, i 1, eq_ix2 i⟩
  obtain rfl : r = rowOf t p := Fin.ext hi0
  obtain rfl : q' = q := Fin.ext hi1
  exact out5_at m c t p q'

/-- WHAT POINT t WRITES BACK to the cell-state array is block t of `C1` of the arguments. -/
theorem flushed6_eq (c : Dev nD) (t : Fin cfg0.N) :
    (dats m 0 c).flushed 6 t = ((cfg0.win 6).blk t).view.read (Elt Ideal)
      (C1 (aX m c) (aH m c) (aC m c) (aWi m c) (aWh m c) (aBi m c) (aBh m c)) := by
  obtain ⟨-, -, -, -, -, -, -, -, -, -, -, -, e0, e1⟩ := idx_facts t
  rw [Value.flushed6]
  funext y
  show out0_6 (iblk m c 0 t) (iblk m c 1 t) (iblk m c 2 t) (iblk m c 3 t) (iblk m c 4 t) y
    = C1 (aX m c) (aH m c) (aC m c) (aWi m c) (aWh m c) (aBi m c) (aBh m c) (((cfg0.win 6).blk t).view.emb y)
  refine out6_point m c t y _ ?_ ?_
  · show win0_6.index t (0 : Fin 2) * 256 + 1 * (y 0).val = t.val * 256 + (y 0).val
    rw [e0]; omega
  · show win0_6.index t (1 : Fin 2) * 1024 + 1 * (y 1).val = (y 1).val
    rw [e1]; omega

/-- WHAT POINT t WRITES BACK to the hidden-state array is block t of `H1` of the arguments. -/
theorem flushed5_eq (c : Dev nD) (t : Fin cfg0.N) :
    (dats m 0 c).flushed 5 t = ((cfg0.win 5).blk t).view.read (Elt Ideal)
      (H1 (aX m c) (aH m c) (aC m c) (aWi m c) (aWh m c) (aBi m c) (aBh m c)) := by
  obtain ⟨-, -, -, -, -, -, -, -, -, -, e0, e1, -⟩ := idx_facts t
  rw [Value.flushed5]
  funext y
  show out0_5 (iblk m c 0 t) (iblk m c 1 t) (iblk m c 2 t) (iblk m c 3 t) (iblk m c 4 t) y
    = H1 (aX m c) (aH m c) (aC m c) (aWi m c) (aWh m c) (aBi m c) (aBh m c) (((cfg0.win 5).blk t).view.emb y)
  refine out5_point m c t y _ ?_ ?_
  · show win0_5.index t (0 : Fin 2) * 256 + 1 * (y 0).val = t.val * 256 + (y 0).val
    rw [e0]; omega
  · show win0_5.index t (1 : Fin 2) * 1024 + 1 * (y 1).val = (y 1).val
    rw [e1]; omega

/-! ## The blocks cover the arrays -/

/-- An index of the array is in point t's block iff each coordinate is in the block's range on its axis. -/
theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

theorem mem_blk5 (t : Fin cfg0.N) (i : S16384x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

/-- Row r of the array is in the block of point r / 256. -/
theorem cover6 (i : S16384x1024.Idx) :
    ∃ t : Fin cfg0.N, (cfg0.win 6).flush t = true ∧ i ∈ ((cfg0.win 6).blk t).view.set := by
  have hN : cfg0.N = 64 := N_0
  have hi0 : (i 0).val < 16384 := (i 0).isLt
  have hi1 : (i 1).val < 1024 := (i 1).isLt
  have ht : (i 0).val / 256 < cfg0.N := by rw [hN]; omega
  obtain ⟨-, -, -, -, -, -, -, -, -, -, -, -, e0, e1⟩ := idx_facts ⟨(i 0).val / 256, ht⟩
  refine ⟨⟨(i 0).val / 256, ht⟩, flush0_6 _, ?_⟩
  rw [mem_blk6]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, ht⟩ (1 : Fin 2) * 1024 ≤ (i 1).val ∧ (i 1).val < win0_6.index ⟨(i 0).val / 256, ht⟩ (1 : Fin 2) * 1024 + 1024
    rw [e1]; omega

theorem cover5 (i : S16384x1024.Idx) :
    ∃ t : Fin cfg0.N, (cfg0.win 5).flush t = true ∧ i ∈ ((cfg0.win 5).blk t).view.set := by
  have hN : cfg0.N = 64 := N_0
  have hi0 : (i 0).val < 16384 := (i 0).isLt
  have hi1 : (i 1).val < 1024 := (i 1).isLt
  have ht : (i 0).val / 256 < cfg0.N := by rw [hN]; omega
  obtain ⟨-, -, -, -, -, -, -, -, -, -, e0, e1, -⟩ := idx_facts ⟨(i 0).val / 256, ht⟩
  refine ⟨⟨(i 0).val / 256, ht⟩, flush0_5 _, ?_⟩
  rw [mem_blk5]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e1]; omega

/-! ## The arrays after the run -/

theorem final6 (c : Dev nD) : (dats m 0 c).arrAt 6 cfg0.N
    = C1 (aX m c) (aH m c) (aC m c) (aWi m c) (aWh m c) (aBi m c) (aBh m c) :=
  (dats m 0 c).arrAt_eq_of_cover 6 _ (fun t _ => flushed6_eq m c t) cover6

theorem final5 (c : Dev nD) : (dats m 0 c).arrAt 5 cfg0.N
    = H1 (aX m c) (aH m c) (aC m c) (aWi m c) (aWh m c) (aBi m c) (aBh m c) :=
  (dats m 0 c).arrAt_eq_of_cover 5 _ (fun t _ => flushed5_eq m c t) cover5

/-- The kernel's run, read: every weakly fair execution ends with the first result array at `H1` and the
    second at `C1` of the arguments as launched, the arguments unchanged. -/
theorem run : θ_run defs (onTc (τ := τ) (main (F := Ideal))) ⟨m, fun _ => 0, ρ⟩ fun r => ∀ c : Dev nD,
      r.2.mem ((c : Thread nD τ).loc main_v4_0) = H1 (aX m c) (aH m c) (aC m c) (aWi m c) (aWh m c) (aBi m c) (aBh m c)
      ∧ r.2.mem ((c : Thread nD τ).loc main_v4_1) = C1 (aX m c) (aH m c) (aC m c) (aWi m c) (aWh m c) (aBi m c) (aBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final5 m c), (h c).2.1.trans (final6 m c), (h c).2.2⟩)
    (Value.run_blocks m ρ)

end Cert.Lstm.Arr

end
-- ==== Proof.lean ====
/-
  The certificate of one LSTM cell step: a kernel that joins `input` and `h_0` along the feature axis and
  contracts them once against the joined weights, adds the two biases as one row, and computes each logistic
  gate as ½·tanh(½ z) + ½ — against a reference that forms the two contractions and adds the biases one after
  the other, and computes each gate as 1 / (1 + e^(-z)).

  On the extended reals the two programs are one function of the seven argument arrays, index by index:
    · a contraction over the joined 2048 entries is the sum of the two contractions over 1024, and the
      biases regroup by associativity and commutativity of + (LstmSpec `joined_dot`);
    · ½·tanh(½ z) + ½ = 1 / (1 + e^(-z)) at every extended real, the two infinities included
      (LstmSpec `half_tanh`), so the precondition (finite inputs) is never opened.
  The reference's run read index by index is `H1` and `C1` of LstmSpec (LstmRef); the kernel's body at a grid
  point is the same cell step on the point's 256 batch rows (LstmBody), and the 64 blocks make up the arrays
  (LstmArray). The three frames are the generated frame runs; the idealization rewrote nothing, so
  `preserves` is trivial.
-/
import proofs.«106861_j37915971289787_2_alg».proof.Defs
import proofs.«106861_j37915971289787_2_alg».proof.Proof.Gen.Kernel
import proofs.«106861_j37915971289787_2_alg».proof.Proof.Gen.Kernel.Skeleton
import proofs.«106861_j37915971289787_2_alg».proof.Proof.Gen.Kernel.Launch
import proofs.«106861_j37915971289787_2_alg».proof.Proof.Gen.Kernel.Points
import proofs.«106861_j37915971289787_2_alg».proof.Proof.Gen.Kernel.Frame
import proofs.«106861_j37915971289787_2_alg».proof.Proof.Gen.KernelIdeal
import proofs.«106861_j37915971289787_2_alg».proof.Proof.Gen.KernelIdeal.Skeleton
import proofs.«106861_j37915971289787_2_alg».proof.Proof.Gen.KernelIdeal.Launch
import proofs.«106861_j37915971289787_2_alg».proof.Proof.Gen.KernelIdeal.Points
import proofs.«106861_j37915971289787_2_alg».proof.Proof.Gen.KernelIdeal.Frame
import proofs.«106861_j37915971289787_2_alg».proof.Proof.Gen.ReferenceIdeal
import proofs.«106861_j37915971289787_2_alg».proof.Proof.Gen.Pre_finite_inputs
import proofs.«106861_j37915971289787_2_alg».proof.Proof.Gen.KernelIdeal.Value
import proofs.«106861_j37915971289787_2_alg».proof.Proof.Gen.ReferenceIdeal.Run
import proofs.«106861_j37915971289787_2_alg».proof.Proof.Gen.ReferenceIdeal.Read
import proofs.«106861_j37915971289787_2_alg».proof.Proof.LstmSpec
import proofs.«106861_j37915971289787_2_alg».proof.Proof.LstmRef
import proofs.«106861_j37915971289787_2_alg».proof.Proof.LstmBody
import proofs.«106861_j37915971289787_2_alg».proof.Proof.LstmArray
import Idealize.ShloMosaic.Adequacy
import Idealize.ShloMosaic.Init

noncomputable section

namespace Cert.Proof

open Idealize.ShloMosaic Idealize.SL.Sem Cert.Lstm

/-- The word-level kernel terminates, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the seven arguments, both programs end with the hidden-state array `H1` and
    the cell-state array `C1` of those arguments. -/
theorem algebraic : Cert.algebraic_KernelIdeal_ReferenceIdeal := by
  intro m ρ m' ρ' _ hagree
  refine ⟨fun c => H1 (Arr.aX m c) (Arr.aH m c) (Arr.aC m c) (Arr.aWi m c) (Arr.aWh m c) (Arr.aBi m c) (Arr.aBh m c),
    fun c => C1 (Arr.aX m c) (Arr.aH m c) (Arr.aC m c) (Arr.aWi m c) (Arr.aWh m c) (Arr.aBi m c) (Arr.aBh m c),
    Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v36_eq _ _ _ _ _ _ _).trans ?_
    rw [Ref.v36_eq, (hagree c).1, (hagree c).2.1, (hagree c).2.2.1, (hagree c).2.2.2.1, (hagree c).2.2.2.2.1,
      (hagree c).2.2.2.2.2.1, (hagree c).2.2.2.2.2.2]
  · refine (Cert.ReferenceIdeal.Read.val_main_v34_eq _ _ _ _ _ _ _).trans ?_
    rw [Ref.v34_eq, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
